-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x128 .f32) (main_arg3 : FVec F S96x128 .f32) (main_arg4 : FVec F S128 .f32) (main_arg5 : FVec F S128x64 .f32) (main_arg6 : FVec F S128x64 .f32) (main_arg7 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S96x128 .f32 := Host.absf main_arg3
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S5000x96 : Shape := ⟨2, ![5000, 96]⟩
abbrev S5000x128 : Shape := ⟨2, ![5000, 128]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S96x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x64, .f32⟩
  | .hbm, ⟨65, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x128, .f32⟩
  | .local _ .vmem, ⟨5, _⟩ => ⟨S96x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x128_S5000x128_1_0_0_1_n_n_wf : DotDims.WF S5000x96 S96x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S96x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its result array named.

  The program is two regions among two stretches of host operations. Its run leaves every unscoped buffer of a core at
  the contents W4 of the last segment boundary: the launch memory folded through the first stretch, the first region's
  write-backs, the second stretch and the second region's write-backs. Read at the result buffer this names what the
  program returns; read at an argument buffer it is the launch contents, since nothing writes an argument.
-/
import proofs.«121603_j80195629350956_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibTwoTermLayer.lean ====
/-
  A dense layer with two matrix products and a bias row, read at one entry, at the extended reals, for any sizes:
  entry (r, c) of  x · w + x' · w' + bias  is

      (the sum over k of x (r, k) * w (k, c)) + (the sum over k' of x' (r, k') * w' (k', c)) + bias c.

  Two spellings of the layer are brought to this one formula. On the vector unit: two matrix-unit products into zero
  accumulators, added, plus a 1 x N row broadcast down the rows. On the host: two dot_general contractions, added,
  plus a length-N vector placed as a 1 x N row and broadcast down the rows. The operands of the products may carry
  any float formats: at the extended reals a change of format changes nothing. Also here: the maximum with a zero
  splat in the two spellings, each the maximum of the entry with the value of the zero word.
-/
import proofs.«121603_j80195629350956_1_alg».proof.Proof.LibDotIx2
import proofs.«121603_j80195629350956_1_alg».proof.Proof.LibBroadcastInDim
import Idealize.ShloMosaic.Lib.ValueLayout

noncomputable section

open scoped BigOperators

namespace Idealize.ShloMosaic.ValueIdx

open Idealize.ShloMosaic

/-- Entry (r, c) of x · w + x' · w' + bias over the extended reals. -/
def twoTermAt {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal)
    (r : Fin M) (c : Fin N) : EReal :=
  (∑ k : Fin K, x (ix2 r k) * w (ix2 k c)) + (∑ k : Fin K', x' (ix2 r k) * w' (ix2 k c)) + bias c

/-- Two entries agree when their rows of both left operands, their columns of both right operands and their bias
    entries agree — the left operands may be arrays of different heights (a block and the array it is cut from). -/
theorem twoTermAt_congr {M M' K K' N : ℕ} {x : (⟨2, ![M, K]⟩ : Shape).Idx → EReal} {x' : (⟨2, ![M, K']⟩ : Shape).Idx → EReal}
    {w : (⟨2, ![K, N]⟩ : Shape).Idx → EReal} {w' : (⟨2, ![K', N]⟩ : Shape).Idx → EReal} {bias : Fin N → EReal}
    {y : (⟨2, ![M', K]⟩ : Shape).Idx → EReal} {y' : (⟨2, ![M', K']⟩ : Shape).Idx → EReal}
    {v : (⟨2, ![K, N]⟩ : Shape).Idx → EReal} {v' : (⟨2, ![K', N]⟩ : Shape).Idx → EReal} {bias' : Fin N → EReal}
    {r : Fin M} {r' : Fin M'} {c c' : Fin N}
    (hx : ∀ k, x (ix2 r k) = y (ix2 r' k)) (hw : ∀ k, w (ix2 k c) = v (ix2 k c'))
    (hx' : ∀ k, x' (ix2 r k) = y' (ix2 r' k)) (hw' : ∀ k, w' (ix2 k c) = v' (ix2 k c'))
    (hb : bias c = bias' c') :
    twoTermAt x x' w w' bias r c = twoTermAt y y' v v' bias' r' c' := by
  unfold twoTermAt
  rw [Finset.sum_congr rfl (fun k _ => by rw [hx k, hw k] : ∀ k ∈ Finset.univ, x (ix2 r k) * w (ix2 k c) = y (ix2 r' k) * v (ix2 k c')),
    Finset.sum_congr rfl (fun k _ => by rw [hx' k, hw' k] : ∀ k ∈ Finset.univ, x' (ix2 r k) * w' (ix2 k c) = y' (ix2 r' k) * v' (ix2 k c')), hb]

/-- The whole M x N array of those entries. -/
def twoTermLin {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal) :
    (⟨2, ![M, N]⟩ : Shape).Idx → EReal :=
  fun i => twoTermAt x x' w w' bias (i 0) (i 1)

/-- The same array after the maximum with the value of the zero word, entry by entry. -/
def twoTermRelu {M K K' N : ℕ} (x : (⟨2, ![M, K]⟩ : Shape).Idx → EReal) (x' : (⟨2, ![M, K']⟩ : Shape).Idx → EReal)
    (w : (⟨2, ![K, N]⟩ : Shape).Idx → EReal) (w' : (⟨2, ![K', N]⟩ : Shape).Idx → EReal) (bias : Fin N → EReal) :
    (⟨2, ![M, N]⟩ : Shape).Idx → EReal :=
  fun i => max (twoTermAt x x' w w' bias (i 0) (i 1)) (Ideal.ofBits .f32 0x00000000#32)

/-- The vector unit's spelling: two products into zeros, their sum, plus a 1 x N row broadcast to M x N. -/
theorem twoTerm_matmul_apply {M K K' N : ℕ} {φ₁ φ₂ φ₃ φ₄ : FTy}
    {d : DotDims (⟨2, ![M, K]⟩ : Shape) (⟨2, ![K, N]⟩ : Shape) (⟨2, ![M, N]⟩ : Shape)} (hd : PlainDot d)
    {d' : DotDims (⟨2, ![M, K']⟩ : Shape) (⟨2, ![K', N]⟩ : Shape) (⟨2, ![M, N]⟩ : Shape)} (hd' : PlainDot d')
    (hb : (⟨2, ![1, N]⟩ : Shape).Broadcasts (⟨2, ![M, N]⟩ : Shape))
    (x : FVec Ideal (⟨2, ![M, K]⟩ : Shape) φ₁) (w : FVec Ideal (⟨2, ![K, N]⟩ : Shape) φ₂)
    (x' : FVec Ideal (⟨2, ![M, K']⟩ : Shape) φ₃) (w' : FVec Ideal (⟨2, ![K', N]⟩ : Shape) φ₄)
    (row : FVec Ideal (⟨2, ![1, N]⟩ : Shape) .f32) (r : Fin M) (c : Fin N) :
    addf (addf (matmul d none x w (constant (⟨2, ![M, N]⟩ : Shape) .f32 0x00000000#32))
        (matmul d' none x' w' (constant (⟨2, ![M, N]⟩ : Shape) .f32 0x00000000#32)))
      (broadcastTo (⟨2, ![M, N]⟩ : Shape) row hb) (ix2 r c)
      = twoTermAt x x' w w' (fun c => row (ix2 (0 : Fin 1) c)) r c := by
  show (FloatOps.matmul d none x w (constant (⟨2, ![M, N]⟩ : Shape) .f32 0x00000000#32) (ix2 r c)
      + FloatOps.matmul d' none x' w' (constant (⟨2, ![M, N]⟩ : Shape) .f32 0x00000000#32) (ix2 r c) : EReal)
      + broadcastTo (⟨2, ![M, N]⟩ : Shape) row hb (ix2 r c) = _
  rw [matmul_zero_ix2_any hd, matmul_zero_ix2_any hd', broadcastTo_1b_ab_apply]
  rfl

/-- The host's spelling: two contractions, their sum, plus a length-N vector as a 1 x N row broadcast to M x N. -/
theorem twoTerm_host_apply {M K K' N : ℕ} {φ₁ φ₂ φ₃ φ₄ : FTy}
    {d : DotDims (⟨2, ![M, K]⟩ : Shape) (⟨2, ![K, N]⟩ : Shape) (⟨2, ![M, N]⟩ : Shape)} (hd : PlainDot d)
    {d' : DotDims (⟨2, ![M, K']⟩ : Shape) (⟨2, ![K', N]⟩ : Shape) (⟨2, ![M, N]⟩ : Shape)} (hd' : PlainDot d')
    (hrow : (⟨1, ![N]⟩ : Shape).BroadcastsInDim (⟨2, ![1, N]⟩ : Shape) ![1])
    (hmat : (⟨2, ![1, N]⟩ : Shape).BroadcastsInDim (⟨2, ![M, N]⟩ : Shape) ![0, 1])
    (x : FVec Ideal (⟨2, ![M, K]⟩ : Shape) φ₁) (w : FVec Ideal (⟨2, ![K, N]⟩ : Shape) φ₂)
    (x' : FVec Ideal (⟨2, ![M, K']⟩ : Shape) φ₃) (w' : FVec Ideal (⟨2, ![K', N]⟩ : Shape) φ₄)
    (b : FVec Ideal (⟨1, ![N]⟩ : Shape) .f32) (r : Fin M) (c : Fin N) :
    addf (addf (Host.dotGeneral d none x w) (Host.dotGeneral d' none x' w'))
      (broadcastInDim (⟨2, ![M, N]⟩ : Shape) ![0, 1] hmat (broadcastInDim (⟨2, ![1, N]⟩ : Shape) ![1] hrow b)) (ix2 r c)
      = twoTermAt x x' w w' (fun c => b (ix1 c)) r c := by
  show (FloatOps.dotGeneral d none _ x w (ix2 r c) + FloatOps.dotGeneral d' none _ x' w' (ix2 r c) : EReal)
      + broadcastInDim (⟨2, ![M, N]⟩ : Shape) ![0, 1] hmat (broadcastInDim (⟨2, ![1, N]⟩ : Shape) ![1] hrow b) (ix2 r c) = _
  rw [dotGeneral_ix2_any hd, dotGeneral_ix2_any hd', broadcastInDim_row_mat_apply, broadcastInDim_vec_row_apply]
  rfl

/-- The maximum with a splat of the zero word, as the vector unit spells it. -/
theorem max_splat_apply {s : Shape} (v : FVec Ideal s .f32) (i : s.Idx) :
    maximumf v (broadcast s (Scalar.ofBits (F := Ideal) .f32 0x00000000#32)) i
      = max (v i : EReal) (Ideal.ofBits .f32 0x00000000#32) := rfl

/-- The maximum with a scalar zero constant broadcast to the whole shape, as the host spells it. -/
theorem max_host_zero_apply {s : Shape} (h : (⟨0, ![]⟩ : Shape).BroadcastsInDim s ![]) (v : FVec Ideal s .f32) (i : s.Idx) :
    maximumf v (broadcastInDim s ![] h (constant (F := Ideal) (⟨0, ![]⟩ : Shape) .f32 0x00000000#32)) i
      = max (v i : EReal) (Ideal.ofBits .f32 0x00000000#32) := by
  rw [maximumf_apply, broadcastInDim_scalar_apply]
  rfl

end Idealize.ShloMosaic.ValueIdx

end
-- ==== Proof.KernelBody.lean ====
/-
  The two kernel bodies, read at one entry of the block they store.

  Both bodies compute, on a block of 5000 rows, two matrix products into zero accumulators, add them, add a bias
  row broadcast down the rows, and (the first body only) take the maximum with zero. At the extended reals entry
  (p, q) of what the first body stores is

      max ( Σ_k a (p, k) · wl (k, q)  +  Σ_k x (p, k) · wr (k, q)  +  b (0, q) ,  0 )

  and of what the second body stores the same sum without the maximum: the two-product layer of its loaded blocks.
-/
import proofs.«121603_j80195629350956_1_alg».proof.Proof.Gen.KernelIdeal.Skeleton
import proofs.«121603_j80195629350956_1_alg».proof.Proof.LibTwoTermLayer
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first body's products contract the left operand's columns with the right operand's rows. -/
theorem plain0 : PlainDot dot_S5000x96_S96x128_S5000x128_1_0_0_1_n_n where
  rank := rfl
  size := rfl
  l0 := fun i q => by
    unfold DotDims.lhsIdx
    rw [dif_neg (show ¬(0 : Fin S5000x96.rank) ∈ dot_S5000x96_S96x128_S5000x128_1_0_0_1_n_n.lhsBatch by decide),
      dif_pos (show (0 : Fin S5000x96.rank) ∈ dot_S5000x96_S96x128_S5000x128_1_0_0_1_n_n.lhsNonContracting by decide)]
    rfl
  l1 := fun i q => dot_S5000x96_S96x128_S5000x128_1_0_0_1_n_n.lhsIdx_val_of_single rfl i q
  r0 := fun i q => dot_S5000x96_S96x128_S5000x128_1_0_0_1_n_n.rhsIdx_val_of_single rfl i q
  r1 := fun i q => by
    unfold DotDims.rhsIdx
    rw [dif_neg (show ¬(1 : Fin S96x128.rank) ∈ dot_S5000x96_S96x128_S5000x128_1_0_0_1_n_n.rhsBatch by decide),
      dif_pos (show (1 : Fin S96x128.rank) ∈ dot_S5000x96_S96x128_S5000x128_1_0_0_1_n_n.rhsNonContracting by decide)]
    rfl

/-- So do the second body's. -/
theorem plain1 : PlainDot dot_S5000x128_S128x64_S5000x64_1_0_0_1_n_n where
  rank := rfl
  size := rfl
  l0 := fun i q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  l1 := fun i q => dot_S5000x128_S128x64_S5000x64_1_0_0_1_n_n.lhsIdx_val_of_single rfl i q
  r0 := fun i q => dot_S5000x128_S128x64_S5000x64_1_0_0_1_n_n.rhsIdx_val_of_single rfl i q
  r1 := fun i q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- Entry (p, q) of what the first body stores: the two-product layer of its blocks, then the maximum with zero. -/
theorem pay0_apply (a : Vec Ideal S5000x96 .f32) (wl : Vec Ideal S96x128 .f32) (x : Vec Ideal S5000x96 .f32)
    (wr : Vec Ideal S96x128 .f32) (b : Vec Ideal S1x128 .f32) (p : Fin 5000) (q : Fin 128) :
    k0_pay1 (F := Ideal) a wl x wr b (ix2 p q)
      = max (twoTermAt a x wl wr (fun c => b (ix2 (0 : Fin 1) c)) p q) (Ideal.ofBits .f32 0x00000000#32) := by
  unfold k0_pay1
  rw [max_splat_apply, shapeCast_self, shapeCast_self]
  exact congrArg (fun z => max z (Ideal.ofBits .f32 0x00000000#32))
    (twoTerm_matmul_apply plain0 plain0 broadcasts_S1x128_S5000x128 a wl x wr b p q)

/-- Entry (p, q) of what the second body stores: the two-product layer of its blocks. -/
theorem pay1_apply (a : Vec Ideal S5000x128 .f32) (wl : Vec Ideal S128x64 .f32) (h : Vec Ideal S5000x128 .f32)
    (wr : Vec Ideal S128x64 .f32) (b : Vec Ideal S1x64 .f32) (p : Fin 5000) (q : Fin 64) :
    k1_pay1 (F := Ideal) a wl h wr b (ix2 p q) = twoTermAt a h wl wr (fun c => b (ix2 (0 : Fin 1) c)) p q := by
  unfold k1_pay1
  rw [shapeCast_self, shapeCast_self, shapeCast_self]
  exact twoTerm_matmul_apply plain1 plain1 broadcasts_S1x64_S5000x64 a wl h wr b p q

end Cert.KernelIdeal.Body

end
-- ==== Proof.LibTwoTermBlock.lean ====
/-
  A block of rows of a two-product layer, at the extended reals, for any sizes.

  A computation that works on the rows of  x · w + x' · w' + bias  in blocks loads rows o .. o + Mb of x and of x',
  the whole of w and of w', and the bias row. If each loaded block is its array read through an embedding of indices
  whose coordinates are the block's (row o + p at local row p, the same column), then entry (p, q) of the layer of the
  loaded blocks is entry (o + p, q) of the layer of the whole arrays. The embeddings enter only through the coordinates
  of the indices they produce, so the lemma serves any row-tiled pipeline: instantiate them at the windows' blocks and
  discharge the coordinate facts by arithmetic.
-/
import proofs.«121603_j80195629350956_1_alg».proof.Proof.LibTwoTermLayer

noncomputable section

open scoped BigOperators

namespace Idealize.ShloMosaic.ValueIdx

open Idealize.ShloMosaic

/-- Entry (p, q) of the layer of a row block is entry (r, q') of the layer of the whole arrays, r = o + p the row the
    block's local row p sits at and q' the same column as q. -/
theorem twoTermAt_rows {Mb M K K' N : ℕ}
    (a : (⟨2, ![Mb, K]⟩ : Shape).Idx → EReal) (x : (⟨2, ![Mb, K']⟩ : Shape).Idx → EReal)
    (wl : (⟨2, ![K, N]⟩ : Shape).Idx → EReal) (wr : (⟨2, ![K', N]⟩ : Shape).Idx → EReal)
    (b : (⟨2, ![1, N]⟩ : Shape).Idx → EReal)
    (A : (⟨2, ![M, K]⟩ : Shape).Idx → EReal) (X : (⟨2, ![M, K']⟩ : Shape).Idx → EReal)
    (WL : (⟨2, ![K, N]⟩ : Shape).Idx → EReal) (WR : (⟨2, ![K', N]⟩ : Shape).Idx → EReal)
    (B : (⟨2, ![1, N]⟩ : Shape).Idx → EReal)
    (ea : (⟨2, ![Mb, K]⟩ : Shape).Idx → (⟨2, ![M, K]⟩ : Shape).Idx)
    (ex : (⟨2, ![Mb, K']⟩ : Shape).Idx → (⟨2, ![M, K']⟩ : Shape).Idx)
    (ewl : (⟨2, ![K, N]⟩ : Shape).Idx → (⟨2, ![K, N]⟩ : Shape).Idx)
    (ewr : (⟨2, ![K', N]⟩ : Shape).Idx → (⟨2, ![K', N]⟩ : Shape).Idx)
    (eb : (⟨2, ![1, N]⟩ : Shape).Idx → (⟨2, ![1, N]⟩ : Shape).Idx)
    (ha : ∀ y, a y = A (ea y)) (hx : ∀ y, x y = X (ex y)) (hwl : ∀ y, wl y = WL (ewl y))
    (hwr : ∀ y, wr y = WR (ewr y)) (hb : ∀ y, b y = B (eb y)) (o : ℕ)
    (ea0 : ∀ y, ((ea y) 0).val = o + (y 0).val) (ea1 : ∀ y, ((ea y) 1).val = (y 1).val)
    (ex0 : ∀ y, ((ex y) 0).val = o + (y 0).val) (ex1 : ∀ y, ((ex y) 1).val = (y 1).val)
    (ewl0 : ∀ y, ((ewl y) 0).val = (y 0).val) (ewl1 : ∀ y, ((ewl y) 1).val = (y 1).val)
    (ewr0 : ∀ y, ((ewr y) 0).val = (y 0).val) (ewr1 : ∀ y, ((ewr y) 1).val = (y 1).val)
    (eb1 : ∀ y, ((eb y) 1).val = (y 1).val)
    (p : Fin Mb) (q : Fin N) (r : Fin M) (q' : Fin N) (hr : r.val = o + p.val) (hq : q'.val = q.val) :
    twoTermAt a x wl wr (fun c => b (ix2 (0 : Fin 1) c)) p q
      = twoTermAt A X WL WR (fun c => B (ix2 (0 : Fin 1) c)) r q' := by
  refine twoTermAt_congr (fun k => ?_) (fun k => ?_) (fun k => ?_) (fun k => ?_) ?_
  · rw [ha]
    exact congrArg A (funext fun ax => Fin.ext (by
      match ax with
      | ⟨0, _⟩ => exact (ea0 (ix2 p k)).trans hr.symm
      | ⟨1, _⟩ => exact ea1 (ix2 p k)))
  · rw [hwl]
    exact congrArg WL (funext fun ax => Fin.ext (by
      match ax with
      | ⟨0, _⟩ => exact ewl0 (ix2 k q)
      | ⟨1, _⟩ => exact (ewl1 (ix2 k q)).trans hq.symm))
  · rw [hx]
    exact congrArg X (funext fun ax => Fin.ext (by
      match ax with
      | ⟨0, _⟩ => exact (ex0 (ix2 p k)).trans hr.symm
      | ⟨1, _⟩ => exact ex1 (ix2 p k)))
  · rw [hwr]
    exact congrArg WR (funext fun ax => Fin.ext (by
      match ax with
      | ⟨0, _⟩ => exact ewr0 (ix2 k q)
      | ⟨1, _⟩ => exact (ewr1 (ix2 k q)).trans hq.symm))
  · show b (ix2 (0 : Fin 1) q) = B (ix2 (0 : Fin 1) q')
    rw [hb]
    exact congrArg B (funext fun ax => Fin.ext (by
      match ax with
      | ⟨0, _⟩ =>
        show ((eb (ix2 (0 : Fin 1) q)) 0).val = 0
        exact Nat.lt_one_iff.mp ((eb (ix2 (0 : Fin 1) q)) 0).isLt
      | ⟨1, _⟩ => exact (eb1 (ix2 (0 : Fin 1) q)).trans hq.symm))

end Idealize.ShloMosaic.ValueIdx

end
-- ==== Proof.KernelBlocks.lean ====
/-
  From blocks to arrays, for both regions.

  Each region tiles the 50000 rows into ten blocks of 5000. At grid point t the body loads rows 5000·t .. 5000·t + 5000
  of the aggregate and of the features, the two weight matrices whole and the bias row, and stores rows
  5000·t .. 5000·t + 5000 of the output. Since every entry of the layer  aggregate · w_l + features · w_r + bias
  depends only on its own row of the two left operands, what point t writes back is block t of the layer of the whole
  arrays, and the ten blocks cover the output: after the region the output array is that layer of the arrays the region
  found, whatever those are (they are a parameter V here).
-/
import proofs.«121603_j80195629350956_1_alg».proof.Proof.Gen.KernelIdeal.Frame
import proofs.«121603_j80195629350956_1_alg».proof.Proof.KernelBody
import proofs.«121603_j80195629350956_1_alg».proof.Proof.LibTwoTermBlock
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the two row-blocked inputs move with the output's block, the weights and
    the bias row stay at block 0, and the output's block number is the point's, below 10. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem onto0 : ∀ q0 : Fin 10, ∃ t : Fin cfg0.N, win0_5.index t = ![q0.val, 0] :=
  (by decide +kernel : ∀ q0 : Fin 10, ∃ t : Fin grid0.N, win0_5.index t = ![q0.val, 0])

/-- The layer of the arrays as the region finds them: the maximum with zero of aggregate · w_l + features · w_r + bias. -/
def layer0 (c : Dev nD) : S50000x128.Idx → EReal :=
  twoTermRelu (M := 50000) (K := 96) (K' := 96) (N := 128)
    (V c main_v22 : S50000x96.Idx → EReal) (V c main_arg0 : S50000x96.Idx → EReal) (V c main_arg2 : S96x128.Idx → EReal)
    (V c main_arg3 : S96x128.Idx → EReal) (fun q => (V c main_v23 : S1x128.Idx → EReal) (ix2 (0 : Fin 1) q))

/-- What point t writes back is block t of that layer: rows 5000·t .. 5000·t + 5000, all columns. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x96) hz, View.ld_unit_zero (S := S96x128) hz, View.ld_unit_zero (S := S1x128) hz]
  obtain ⟨e00, e01, e10, e11, e20, e21, e30, e31, e40, e41, e51, -⟩ := idx0 t
  funext j
  obtain ⟨p, q, rfl⟩ : ∃ (p : Fin 5000) (q : Fin 128), j = ix2 p q := ⟨j 0, j 1, eq_ix2 j⟩
  show k0_pay1 (iblk0 V c 0 t) (iblk0 V c 2 t) (iblk0 V c 1 t) (iblk0 V c 3 t) (iblk0 V c 4 t) (ix2 p q)
    = layer0 V c (((cfg0.win 5).blk t).view.emb (ix2 p q))
  refine (Body.pay0_apply (iblk0 V c 0 t) (iblk0 V c 2 t) (iblk0 V c 1 t) (iblk0 V c 3 t) (iblk0 V c 4 t) p q).trans ?_
  refine congrArg (fun z => max z (Ideal.ofBits .f32 0x00000000#32)) ?_
  exact twoTermAt_rows (iblk0 V c 0 t) (iblk0 V c 1 t) (iblk0 V c 2 t) (iblk0 V c 3 t) (iblk0 V c 4 t)
    (V c main_v22) (V c main_arg0) (V c main_arg2) (V c main_arg3) (V c main_v23)
    ((cfg0.win 0).blk t).view.emb ((cfg0.win 1).blk t).view.emb ((cfg0.win 2).blk t).view.emb
    ((cfg0.win 3).blk t).view.emb ((cfg0.win 4).blk t).view.emb
    (fun _ => rfl) (fun _ => rfl) (fun _ => rfl) (fun _ => rfl) (fun _ => rfl) (win0_5.index t (0 : Fin 2) * 5000)
    (fun y => by show win0_0.index t (0 : Fin 2) * 5000 + 1 * (y 0).val = _; omega)
    (fun y => by show win0_0.index t (1 : Fin 2) * 96 + 1 * (y 1).val = _; omega)
    (fun y => by show win0_1.index t (0 : Fin 2) * 5000 + 1 * (y 0).val = _; omega)
    (fun y => by show win0_1.index t (1 : Fin 2) * 96 + 1 * (y 1).val = _; omega)
    (fun y => by show win0_2.index t (0 : Fin 2) * 96 + 1 * (y 0).val = _; omega)
    (fun y => by show win0_2.index t (1 : Fin 2) * 128 + 1 * (y 1).val = _; omega)
    (fun y => by show win0_3.index t (0 : Fin 2) * 96 + 1 * (y 0).val = _; omega)
    (fun y => by show win0_3.index t (1 : Fin 2) * 128 + 1 * (y 1).val = _; omega)
    (fun y => by show win0_4.index t (1 : Fin 2) * 128 + 1 * (y 1).val = _; omega)
    p q _ _
    (by show win0_5.index t (0 : Fin 2) * 5000 + 1 * p.val = _; omega)
    (by show win0_5.index t (1 : Fin 2) * 128 + 1 * q.val = _; omega)

/-- An index of the output array is in point t's block iff each coordinate is in the block's range on its axis. -/
theorem mem_blk0 (t : Fin cfg0.N) (i : S50000x128.Idx) :
    i ∈ ((cfg0.win 5).blk t).view.set ↔ ∀ ax : Fin 2, win0_5.index t ax * S5000x128.size ax ≤ (i ax).val ∧ (i ax).val < win0_5.index t ax * S5000x128.size ax + S5000x128.size ax := by
  show i ∈ ((View.whole main_v24).slice (win0_5.rect t)).set ↔ _
  rw [View.set_slice_whole, Rect.mem_set_unit]
  exact Iff.rfl

/-- The ten blocks cover the output array: row r is in the block of the point whose block number is r / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro ax
  match ax with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region's ten write-backs is that layer of the arrays the region was entered with. -/
theorem final0 (c : Dev nD) : (dat0 V c).arrAt 5 cfg0.N = layer0 V c :=
  (dat0 V c).arrAt_eq_of_cover 5 (layer0 V c) (fun t _ => flushed0_eq V c t) (cover0)

/-! ## Region 1 -/

/-- The printed index maps over the grid: the two row-blocked inputs move with the output's block, the weights and
    the bias row stay at block 0, and the output's block number is the point's, below 10. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- The layer of the arrays as the region finds them: aggregate · w_l + features · w_r + bias. -/
def layer1 (c : Dev nD) : S50000x64.Idx → EReal :=
  twoTermLin (M := 50000) (K := 128) (K' := 128) (N := 64)
    (V c main_v43 : S50000x128.Idx → EReal) (V c main_v24 : S50000x128.Idx → EReal) (V c main_arg5 : S128x64.Idx → EReal)
    (V c main_arg6 : S128x64.Idx → EReal) (fun q => (V c main_v44 : S1x64.Idx → EReal) (ix2 (0 : Fin 1) q))

/-- What point t writes back is block t of that layer: rows 5000·t .. 5000·t + 5000, all columns. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e51, -⟩ := idx1 t
  funext j
  obtain ⟨p, q, rfl⟩ : ∃ (p : Fin 5000) (q : Fin 64), j = ix2 p q := ⟨j 0, j 1, eq_ix2 j⟩
  show k1_pay1 (iblk1 V c 0 t) (iblk1 V c 2 t) (iblk1 V c 1 t) (iblk1 V c 3 t) (iblk1 V c 4 t) (ix2 p q)
    = layer1 V c (((cfg1.win 5).blk t).view.emb (ix2 p q))
  refine (Body.pay1_apply (iblk1 V c 0 t) (iblk1 V c 2 t) (iblk1 V c 1 t) (iblk1 V c 3 t) (iblk1 V c 4 t) p q).trans ?_
  unfold layer1 twoTermLin
  exact twoTermAt_rows (iblk1 V c 0 t) (iblk1 V c 1 t) (iblk1 V c 2 t) (iblk1 V c 3 t) (iblk1 V c 4 t)
    (V c main_v43) (V c main_v24) (V c main_arg5) (V c main_arg6) (V c main_v44)
    ((cfg1.win 0).blk t).view.emb ((cfg1.win 1).blk t).view.emb ((cfg1.win 2).blk t).view.emb
    ((cfg1.win 3).blk t).view.emb ((cfg1.win 4).blk t).view.emb
    (fun _ => rfl) (fun _ => rfl) (fun _ => rfl) (fun _ => rfl) (fun _ => rfl) (win1_5.index t (0 : Fin 2) * 5000)
    (fun y => by show win1_0.index t (0 : Fin 2) * 5000 + 1 * (y 0).val = _; omega)
    (fun y => by show win1_0.index t (1 : Fin 2) * 128 + 1 * (y 1).val = _; omega)
    (fun y => by show win1_1.index t (0 : Fin 2) * 5000 + 1 * (y 0).val = _; omega)
    (fun y => by show win1_1.index t (1 : Fin 2) * 128 + 1 * (y 1).val = _; omega)
    (fun y => by show win1_2.index t (0 : Fin 2) * 128 + 1 * (y 0).val = _; omega)
    (fun y => by show win1_2.index t (1 : Fin 2) * 64 + 1 * (y 1).val = _; omega)
    (fun y => by show win1_3.index t (0 : Fin 2) * 128 + 1 * (y 0).val = _; omega)
    (fun y => by show win1_3.index t (1 : Fin 2) * 64 + 1 * (y 1).val = _; omega)
    (fun y => by show win1_4.index t (1 : Fin 2) * 64 + 1 * (y 1).val = _; omega)
    p q _ _
    (by show win1_5.index t (0 : Fin 2) * 5000 + 1 * p.val = _; omega)
    (by show win1_5.index t (1 : Fin 2) * 64 + 1 * q.val = _; omega)

/-- An index of the output array is in point t's block iff each coordinate is in the block's range on its axis. -/
theorem mem_blk1 (t : Fin cfg1.N) (i : S50000x64.Idx) :
    i ∈ ((cfg1.win 5).blk t).view.set ↔ ∀ ax : Fin 2, win1_5.index t ax * S5000x64.size ax ≤ (i ax).val ∧ (i ax).val < win1_5.index t ax * S5000x64.size ax + S5000x64.size ax := by
  show i ∈ ((View.whole main_v45).slice (win1_5.rect t)).set ↔ _
  rw [View.set_slice_whole, Rect.mem_set_unit]
  exact Iff.rfl

/-- The ten blocks cover the output array: row r is in the block of the point whose block number is r / 5000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro ax
  match ax with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region's ten write-backs is that layer of the arrays the region was entered with. -/
theorem final1 (c : Dev nD) : (dat1 V c).arrAt 5 cfg1.N = layer1 V c :=
  (dat1 V c).arrAt_eq_of_cover 5 (layer1 V c) (fun t _ => flushed1_eq V c t) (cover1)

end Cert.KernelIdeal.Blocks

end
-- ==== Proof.SageSpec.lean ====
/-
  The function both programs compute: a two-layer graph convolution with mean aggregation.

  From the edge list e (two rows of node numbers: sources, destinations) and a feature array, the MEAN AGGREGATE of a
  node is the sum of the feature rows of the sources of its incoming edges divided by max(in-degree, 1). Both programs
  compute it by the same chain of host operations — gather the source rows, scatter-add them into the destination
  rows, scatter-add ones for the in-degree, clamp, divide — and nothing here looks inside that chain: it is named, as a
  function of the feature array and of the two node-number vectors, and carried whole.

  A layer is then, entry by entry,   aggregate · w_l  +  features · w_r  +  bias,
  the first layer followed by the maximum with zero, the second applied to the first layer's result:

      hidden = max (mean(x) · w1_l + x · w1_r + b1, 0),      out = mean(hidden) · w2_l + hidden · w2_r + b2.
-/
import proofs.«121603_j80195629350956_1_alg».proof.Proof.Gen.KernelIdeal
import proofs.«121603_j80195629350956_1_alg».proof.Proof.LibTwoTermLayer
import Idealize.ShloMosaic.PureOps.Ideal

noncomputable section

namespace Cert.KernelIdeal.Spec

open Cert.KernelIdeal Idealize.ShloMosaic Idealize.ShloMosaic.ValueIdx
open Facts₀ Facts

variable {F : FTy → Type} [FloatOps F]

/-- The edges' source node numbers: row 0 of the edge list. -/
def srcRow (e : IVec S2x800000 32) : IVec S800000 32 :=
  shapeCast S800000 (extractStridedSlice S1x800000 ![0, 0] e slices_S2x800000_S1x800000_0_0) shapeCasts_S1x800000_S800000

/-- The edges' destination node numbers: row 1 of the edge list. -/
def dstRow (e : IVec S2x800000 32) : IVec S800000 32 :=
  shapeCast S800000 (extractStridedSlice S1x800000 ![1, 0] e slices_S2x800000_S1x800000_1_0) shapeCasts_S1x800000_S800000

/-- The source numbers as the gather's index column, a negative number r read as r + 50000. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination numbers as the scatters' index column. -/
def dstCol (d : IVec S800000 32) : IVec S800000x1 32 :=
  broadcastInDim S800000x1 ![0] bcast_S800000_S800000x1_0 d

/-- Each node's in-degree (ones scatter-added at the destinations), clamped below at one. -/
def degree (d : IVec S800000 32) : FVec F S50000 .f32 :=
  maximumf
    (Host.scatterAdd scatter_S50000_S800000x1_S800000_n_0_0_1
      (broadcastInDim S50000 ![] bcast_S_S50000 (constant S_ .f32 0x00000000#32)) (dstCol d)
      (broadcastInDim S800000 ![] bcast_S_S800000 (constant S_ .f32 0x3F800000#32)))
    (broadcastInDim S50000 ![] bcast_S_S50000 (constant S_ .f32 0x3F800000#32))

/-- The mean aggregation of a [50000, 96] feature array along the edges: the rows at the source nodes gathered, summed
    into their destination rows, each row divided by its destination's clamped in-degree. -/
def mean96 (x : FVec F S50000x96 .f32) (s d : IVec S800000 32) : FVec F S50000x96 .f32 :=
  Host.divf
    (Host.scatterAdd scatter_S50000x96_S800000x1_S800000x96_1_0_0_1
      (broadcastInDim S50000x96 ![] bcast_S_S50000x96 (constant S_ .f32 0x00000000#32)) (dstCol d)
      (Host.gather gather_S50000x96_S800000x1_S800000x96_1_0_n_n_0_1_196 x (srcCol s)))
    (broadcastInDim S50000x96 ![0, 1] bcast_S50000x1_S50000x96_0_1
      (broadcastInDim S50000x1 ![0] bcast_S50000_S50000x1_0 (degree d)))

/-- The mean aggregation of a [50000, 128] feature array along the edges: the rows at the source nodes gathered, summed
    into their destination rows, each row divided by its destination's clamped in-degree. -/
def mean128 (x : FVec F S50000x128 .f32) (s d : IVec S800000 32) : FVec F S50000x128 .f32 :=
  Host.divf
    (Host.scatterAdd scatter_S50000x128_S800000x1_S800000x128_1_0_0_1
      (broadcastInDim S50000x128 ![] bcast_S_S50000x128 (constant S_ .f32 0x00000000#32)) (dstCol d)
      (Host.gather gather_S50000x128_S800000x1_S800000x128_1_0_n_n_0_1_1128 x (srcCol s)))
    (broadcastInDim S50000x128 ![0, 1] bcast_S50000x1_S50000x128_0_1
      (broadcastInDim S50000x1 ![0] bcast_S50000_S50000x1_0 (degree d)))

/-- The first layer's result at the extended reals: max (mean(x) · w_l + x · w_r + b, 0), entry by entry. -/
def hidden (x : S50000x96.Idx → EReal) (e : IVec S2x800000 32) (wl wr : S96x128.Idx → EReal) (b : S128.Idx → EReal) :
    S50000x128.Idx → EReal :=
  twoTermRelu (M := 50000) (K := 96) (K' := 96) (N := 128)
    (mean96 (F := Ideal) x (srcRow e) (dstRow e)) x wl wr (fun q => b (ix1 q))

/-- The program's result at the extended reals: mean(hidden) · w_l + hidden · w_r + b, entry by entry. -/
def out (x : S50000x96.Idx → EReal) (e : IVec S2x800000 32) (w1l w1r : S96x128.Idx → EReal) (b1 : S128.Idx → EReal)
    (w2l w2r : S128x64.Idx → EReal) (b2 : S64.Idx → EReal) : S50000x64.Idx → EReal :=
  twoTermLin (M := 50000) (K := 128) (K' := 128) (N := 64)
    (mean128 (F := Ideal) (hidden x e w1l w1r b1) (srcRow e) (dstRow e)) (hidden x e w1l w1r b1) w2l w2r
    (fun q => b2 (ix1 q))

end Cert.KernelIdeal.Spec

end
-- ==== Proof.KernelHost.lean ====
/-
  The kernel program read end to end: its result buffer is the two-layer function of its arguments.

  Region 0 is entered after the first stretch of host operations, which leaves the mean aggregate of x, the bias b1
  recast as a 1 x 128 row, and the source and destination vectors of the edge list; the arguments are untouched. So
  region 0's output array — the layer of the arrays it was entered with — is hidden = max (mean(x) · w1_l + x · w1_r
  + b1, 0). Region 1 is entered after the second stretch, which aggregates region 0's output array along the same two
  vectors and recasts b2 as a row; its output array, the program's result, is mean(hidden) · w2_l + hidden · w2_r + b2.
-/
import proofs.«121603_j80195629350956_1_alg».proof.Proof.Gen.KernelIdeal.Frame
import proofs.«121603_j80195629350956_1_alg».proof.Proof.KernelBlocks
import proofs.«121603_j80195629350956_1_alg».proof.Proof.SageSpec
import Idealize.ShloMosaic.Lib.StableHlo.Run
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## After the first stretch of host operations -/

/-- The source vector it leaves is row 0 of the edge list. -/
theorem W1_src (c : Dev nD) : (W1 m ρ c (Proc.devRef .tc main_v1) : IVec S800000 32) = Spec.srcRow (m ((c : Thread nD τ).loc main_arg1)) := by
  show StableHlo.after hostOps0 (W0 m ρ c) (Proc.devRef .tc main_v1) = _
  after_results_simp
  rfl

/-- The destination vector it leaves is row 1 of the edge list. -/
theorem W1_dst (c : Dev nD) : (W1 m ρ c (Proc.devRef .tc main_v3) : IVec S800000 32) = Spec.dstRow (m ((c : Thread nD τ).loc main_arg1)) := by
  show StableHlo.after hostOps0 (W0 m ρ c) (Proc.devRef .tc main_v3) = _
  after_results_simp
  rfl

/-- Region 0's first window is over the mean aggregate of x. -/
theorem V1_agg (c : Dev nD) : (V1 m ρ c main_v22 : S50000x96.Idx → EReal)
    = Spec.mean96 (F := Ideal) (m ((c : Thread nD τ).loc main_arg0)) (Spec.srcRow (m ((c : Thread nD τ).loc main_arg1))) (Spec.dstRow (m ((c : Thread nD τ).loc main_arg1))) := by
  show StableHlo.after hostOps0 (W0 m ρ c) (Proc.devRef .tc main_v22) = _
  after_results_simp
  rfl

/-- Its bias row read at column q is b1 at q. -/
theorem V1_bias (c : Dev nD) (q : Fin 128) :
    (V1 m ρ c main_v23 : S1x128.Idx → EReal) (ix2 (0 : Fin 1) q) = (m ((c : Thread nD τ).loc main_arg4)) (ix1 q) := by
  have e : (V1 m ρ c main_v23 : S1x128.Idx → EReal) = shapeCast S1x128 (m ((c : Thread nD τ).loc main_arg4)) shapeCasts_S128_S1x128 := by
    show StableHlo.after hostOps0 (W0 m ρ c) (Proc.devRef .tc main_v23) = _
    after_results_simp
    rfl
  rw [e]
  exact shapeCast_a_1a_apply _ _ (0 : Fin 1) q

/-- The first stretch leaves the argument as launched. -/
theorem V1_main_arg0 (c : Dev nD) : (V1 m ρ c main_arg0 : S50000x96.Idx → EReal) = (m ((c : Thread nD τ).loc main_arg0)) := by
  show StableHlo.after hostOps0 (W0 m ρ c) (Proc.devRef .tc main_arg0) = _
  after_results_simp

/-- The first stretch leaves the argument as launched. -/
theorem V1_main_arg2 (c : Dev nD) : (V1 m ρ c main_arg2 : S96x128.Idx → EReal) = (m ((c : Thread nD τ).loc main_arg2)) := by
  show StableHlo.after hostOps0 (W0 m ρ c) (Proc.devRef .tc main_arg2) = _
  after_results_simp

/-- The first stretch leaves the argument as launched. -/
theorem V1_main_arg3 (c : Dev nD) : (V1 m ρ c main_arg3 : S96x128.Idx → EReal) = (m ((c : Thread nD τ).loc main_arg3)) := by
  show StableHlo.after hostOps0 (W0 m ρ c) (Proc.devRef .tc main_arg3) = _
  after_results_simp

/-- Neither the first stretch nor region 0 writes the argument. -/
theorem W2_main_arg5 (c : Dev nD) : (W2 m ρ c (Proc.devRef .tc main_arg5) : S128x64.Idx → EReal) = (m ((c : Thread nD τ).loc main_arg5)) := by
  refine (W2_of_ne m ρ c main_arg5 (by decide)).trans ?_
  show StableHlo.after hostOps0 (W0 m ρ c) (Proc.devRef .tc main_arg5) = _
  after_results_simp

/-- Neither the first stretch nor region 0 writes the argument. -/
theorem W2_main_arg6 (c : Dev nD) : (W2 m ρ c (Proc.devRef .tc main_arg6) : S128x64.Idx → EReal) = (m ((c : Thread nD τ).loc main_arg6)) := by
  refine (W2_of_ne m ρ c main_arg6 (by decide)).trans ?_
  show StableHlo.after hostOps0 (W0 m ρ c) (Proc.devRef .tc main_arg6) = _
  after_results_simp

/-- Neither the first stretch nor region 0 writes the argument. -/
theorem W2_main_arg7 (c : Dev nD) : (W2 m ρ c (Proc.devRef .tc main_arg7) : S64.Idx → EReal) = (m ((c : Thread nD τ).loc main_arg7)) := by
  refine (W2_of_ne m ρ c main_arg7 (by decide)).trans ?_
  show StableHlo.after hostOps0 (W0 m ρ c) (Proc.devRef .tc main_arg7) = _
  after_results_simp

/-! ## After region 0 -/

/-- Region 0 leaves the source and destination vectors as it found them. -/
theorem W2_src (c : Dev nD) : (W2 m ρ c (Proc.devRef .tc main_v1) : IVec S800000 32) = Spec.srcRow (m ((c : Thread nD τ).loc main_arg1)) :=
  (W2_of_ne m ρ c main_v1 (by decide)).trans (W1_src m ρ c)
theorem W2_dst (c : Dev nD) : (W2 m ρ c (Proc.devRef .tc main_v3) : IVec S800000 32) = Spec.dstRow (m ((c : Thread nD τ).loc main_arg1)) :=
  (W2_of_ne m ρ c main_v3 (by decide)).trans (W1_dst m ρ c)

/-- Region 0's output array is the first layer's result. -/
theorem W2_hidden (c : Dev nD) : (W2 m ρ c (Proc.devRef .tc main_v24) : S50000x128.Idx → EReal)
    = Spec.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Blocks.final0 (V1 m ρ) c]
  unfold Blocks.layer0 Spec.hidden
  rw [V1_agg m ρ c, V1_main_arg0 m ρ c, V1_main_arg2 m ρ c, V1_main_arg3 m ρ c,
    show (fun q => (V1 m ρ c main_v23 : S1x128.Idx → EReal) (ix2 (0 : Fin 1) q)) = fun q => (m ((c : Thread nD τ).loc main_arg4)) (ix1 q)
      from funext fun q => V1_bias m ρ c q]

/-! ## After the second stretch of host operations -/

/-- Region 1's first window is over the mean aggregate of region 0's output array. -/
theorem V3_agg (c : Dev nD) : (V3 m ρ c main_v43 : S50000x128.Idx → EReal)
    = Spec.mean128 (F := Ideal) (W2 m ρ c (Proc.devRef .tc main_v24)) (W2 m ρ c (Proc.devRef .tc main_v1))
        (W2 m ρ c (Proc.devRef .tc main_v3)) := by
  show StableHlo.after hostOps1 (W2 m ρ c) (Proc.devRef .tc main_v43) = _
  after_results_simp
  rfl

/-- Its second window is over region 0's output array itself. -/
theorem V3_hidden (c : Dev nD) : (V3 m ρ c main_v24 : S50000x128.Idx → EReal) = W2 m ρ c (Proc.devRef .tc main_v24) := by
  show StableHlo.after hostOps1 (W2 m ρ c) (Proc.devRef .tc main_v24) = _
  after_results_simp

theorem V3_main_arg5 (c : Dev nD) : (V3 m ρ c main_arg5 : S128x64.Idx → EReal) = (m ((c : Thread nD τ).loc main_arg5)) := by
  refine Eq.trans ?_ (W2_main_arg5 m ρ c)
  show StableHlo.after hostOps1 (W2 m ρ c) (Proc.devRef .tc main_arg5) = _
  after_results_simp

theorem V3_main_arg6 (c : Dev nD) : (V3 m ρ c main_arg6 : S128x64.Idx → EReal) = (m ((c : Thread nD τ).loc main_arg6)) := by
  refine Eq.trans ?_ (W2_main_arg6 m ρ c)
  show StableHlo.after hostOps1 (W2 m ρ c) (Proc.devRef .tc main_arg6) = _
  after_results_simp

/-- Its bias row read at column q is b2 at q. -/
theorem V3_bias (c : Dev nD) (q : Fin 64) :
    (V3 m ρ c main_v44 : S1x64.Idx → EReal) (ix2 (0 : Fin 1) q) = (m ((c : Thread nD τ).loc main_arg7)) (ix1 q) := by
  have e : (V3 m ρ c main_v44 : S1x64.Idx → EReal)
      = shapeCast S1x64 (W2 m ρ c (Proc.devRef .tc main_arg7) : S64.Idx → EReal) shapeCasts_S64_S1x64 := by
    show StableHlo.after hostOps1 (W2 m ρ c) (Proc.devRef .tc main_v44) = _
    after_results_simp
    rfl
  rw [e, W2_main_arg7 m ρ c]
  exact shapeCast_a_1a_apply _ _ (0 : Fin 1) q

/-! ## The result -/

/-- After region 1 the result buffer holds the two-layer function of the launch arguments. -/
theorem result_eq (c : Dev nD) : (W4 m ρ c (Proc.devRef .tc main_v45) : S50000x64.Idx → EReal)
    = Spec.out (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ?_
  rw [Blocks.final1 (V3 m ρ) c]
  unfold Blocks.layer1 Spec.out
  rw [V3_agg m ρ c, V3_hidden m ρ c, V3_main_arg5 m ρ c, V3_main_arg6 m ρ c, W2_hidden m ρ c, W2_src m ρ c, W2_dst m ρ c,
    show (fun q => (V3 m ρ c main_v44 : S1x64.Idx → EReal) (ix2 (0 : Fin 1) q)) = fun q => (m ((c : Thread nD τ).loc main_arg7)) (ix1 q)
      from funext fun q => V3_bias m ρ c q]

end Cert.KernelIdeal.HostSide

end
-- ==== Proof.RefValue.lean ====
/-
  The reference program's result is the same two-layer function of its arguments.

  The reference computes each mean aggregate by the chain of host operations the kernel program uses — the same
  operations with the same dimension numbers, on the feature array and the two rows of the edge list — so its aggregates
  are the named ones. Its layers are the host's spelling of the two-product formula: two contractions of the left
  operand's columns with the right operand's rows, added, plus the bias placed as a row and broadcast down the rows;
  and its rectifier is the maximum with a zero constant broadcast to the whole array. Read entry by entry these are
  the specification's hidden and out.
-/
import proofs.«121603_j80195629350956_1_alg».proof.Proof.Gen.ReferenceIdeal.Read
import proofs.«121603_j80195629350956_1_alg».proof.Proof.SageSpec
import proofs.«121603_j80195629350956_1_alg».proof.Proof.LibTwoTermLayer

set_option maxRecDepth 16384

noncomputable section

namespace Cert.ReferenceIdeal.RefValue

open Cert.ReferenceIdeal Cert.ReferenceIdeal.Read Idealize.ShloMosaic Idealize.ShloMosaic.ValueIdx
open Facts₀ Facts
open Cert.KernelIdeal (Spec.srcRow Spec.dstRow Spec.mean96 Spec.mean128 Spec.hidden Spec.out)

/-- The first layer's contractions are plain products: the left operand's columns against the right operand's rows. -/
theorem plain1 : PlainDot dot_S50000x96_S96x128_S50000x128_1_0_0_1_n_n where
  rank := rfl
  size := rfl
  l0 := fun i q => by
    unfold DotDims.lhsIdx
    rw [dif_neg (show ¬(0 : Fin S50000x96.rank) ∈ dot_S50000x96_S96x128_S50000x128_1_0_0_1_n_n.lhsBatch by decide),
      dif_pos (show (0 : Fin S50000x96.rank) ∈ dot_S50000x96_S96x128_S50000x128_1_0_0_1_n_n.lhsNonContracting by decide)]
    rfl
  l1 := fun i q => dot_S50000x96_S96x128_S50000x128_1_0_0_1_n_n.lhsIdx_val_of_single rfl i q
  r0 := fun i q => dot_S50000x96_S96x128_S50000x128_1_0_0_1_n_n.rhsIdx_val_of_single rfl i q
  r1 := fun i q => by
    unfold DotDims.rhsIdx
    rw [dif_neg (show ¬(1 : Fin S96x128.rank) ∈ dot_S50000x96_S96x128_S50000x128_1_0_0_1_n_n.rhsBatch by decide),
      dif_pos (show (1 : Fin S96x128.rank) ∈ dot_S50000x96_S96x128_S50000x128_1_0_0_1_n_n.rhsNonContracting by decide)]
    rfl

/-- So are the second layer's. -/
theorem plain2 : PlainDot dot_S50000x128_S128x64_S50000x64_1_0_0_1_n_n where
  rank := rfl
  size := rfl
  l0 := fun i q => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  l1 := fun i q => dot_S50000x128_S128x64_S50000x64_1_0_0_1_n_n.lhsIdx_val_of_single rfl i q
  r0 := fun i q => dot_S50000x128_S128x64_S50000x64_1_0_0_1_n_n.rhsIdx_val_of_single rfl i q
  r1 := fun i q => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl

/-- The reference's first aggregate is the named chain on x and the two rows of the edge list. -/
theorem agg1_eq (x0 : (⟨S50000x96, .f32⟩ : BufTy).Contents (Elt Ideal)) (x1 : (⟨S2x800000, .i32⟩ : BufTy).Contents (Elt Ideal)) :
    val_main_v22 (F := Ideal) x0 x1 = Spec.mean96 (F := Ideal) x0 (Spec.srcRow x1) (Spec.dstRow x1) := rfl

/-- Its second aggregate is the named chain on its first layer's result and the same two rows. -/
theorem agg2_eq (x0 : (⟨S50000x96, .f32⟩ : BufTy).Contents (Elt Ideal)) (x1 : (⟨S2x800000, .i32⟩ : BufTy).Contents (Elt Ideal)) (x2 : (⟨S96x128, .f32⟩ : BufTy).Contents (Elt Ideal)) (x3 : (⟨S96x128, .f32⟩ : BufTy).Contents (Elt Ideal)) (x4 : (⟨S128, .f32⟩ : BufTy).Contents (Elt Ideal)) :
    val_main_v52 (F := Ideal) x0 x1 x2 x3 x4
      = Spec.mean128 (F := Ideal) (val_main_v29 (F := Ideal) x0 x1 x2 x3 x4) (Spec.srcRow x1) (Spec.dstRow x1) := rfl

/-- The reference's rectified first layer is the specification's hidden. -/
theorem hidden_eq (x0 : (⟨S50000x96, .f32⟩ : BufTy).Contents (Elt Ideal)) (x1 : (⟨S2x800000, .i32⟩ : BufTy).Contents (Elt Ideal)) (x2 : (⟨S96x128, .f32⟩ : BufTy).Contents (Elt Ideal)) (x3 : (⟨S96x128, .f32⟩ : BufTy).Contents (Elt Ideal)) (x4 : (⟨S128, .f32⟩ : BufTy).Contents (Elt Ideal)) :
    val_main_v29 (F := Ideal) x0 x1 x2 x3 x4 = Spec.hidden x0 x1 x2 x3 x4 := by
  funext i
  obtain ⟨p, q, rfl⟩ : ∃ (p : Fin 50000) (q : Fin 128), i = ix2 p q := ⟨i 0, i 1, eq_ix2 i⟩
  unfold val_main_v29 val_main_call0_v0 val_main_call0_cst
  refine (max_host_zero_apply bcast_S_S50000x128 _ (ix2 p q)).trans ?_
  unfold val_main_v28 val_main_v27 val_main_v26 val_main_v25 val_main_v24 val_main_v23
  rw [agg1_eq]
  exact congrArg (fun z => max z (Ideal.ofBits .f32 0x00000000#32))
    (twoTerm_host_apply plain1 plain1 bcast_S128_S1x128_1 bcast_S1x128_S50000x128_0_1
      (Spec.mean96 (F := Ideal) x0 (Spec.srcRow x1) (Spec.dstRow x1)) x2 x0 x3 x4 p q)

/-- The reference's result is the specification's out. -/
theorem out_eq (x0 : (⟨S50000x96, .f32⟩ : BufTy).Contents (Elt Ideal)) (x1 : (⟨S2x800000, .i32⟩ : BufTy).Contents (Elt Ideal)) (x2 : (⟨S96x128, .f32⟩ : BufTy).Contents (Elt Ideal)) (x3 : (⟨S96x128, .f32⟩ : BufTy).Contents (Elt Ideal)) (x4 : (⟨S128, .f32⟩ : BufTy).Contents (Elt Ideal)) (x5 : (⟨S128x64, .f32⟩ : BufTy).Contents (Elt Ideal)) (x6 : (⟨S128x64, .f32⟩ : BufTy).Contents (Elt Ideal)) (x7 : (⟨S64, .f32⟩ : BufTy).Contents (Elt Ideal)) :
    val_main_v58 (F := Ideal) x0 x1 x2 x3 x4 x5 x6 x7 = Spec.out x0 x1 x2 x3 x4 x5 x6 x7 := by
  funext i
  obtain ⟨p, q, rfl⟩ : ∃ (p : Fin 50000) (q : Fin 64), i = ix2 p q := ⟨i 0, i 1, eq_ix2 i⟩
  unfold val_main_v58 val_main_v57 val_main_v56 val_main_v55 val_main_v54 val_main_v53
  rw [agg2_eq, hidden_eq]
  exact twoTerm_host_apply plain2 plain2 bcast_S64_S1x64_1 bcast_S1x64_S50000x64_0_1
    (Spec.mean128 (F := Ideal) (Spec.hidden x0 x1 x2 x3 x4) (Spec.srcRow x1) (Spec.dstRow x1)) x5
    (Spec.hidden x0 x1 x2 x3 x4) x6 x7 p q

end Cert.ReferenceIdeal.RefValue

end
-- ==== Proof.lean ====
/-
  A two-layer graph convolution with mean aggregation, as a kernel program and as its reference, equal over the
  extended reals.

  Both programs take node features x [50000, 96], an edge list [2, 800000] of node numbers (sources, destinations),
  and two layers' weights w_l, w_r and bias b. A node's MEAN AGGREGATE of a feature array is the sum of the rows at
  the sources of its incoming edges divided by max(in-degree, 1); a layer is, entry by entry,

      aggregate · w_l  +  features · w_r  +  bias,

  and the result is   out = mean(hidden) · w2_l + hidden · w2_r + b2   with
  hidden = max (mean(x) · w1_l + x · w1_r + b1, 0).

  The two programs compute the aggregates by the same chain of host operations; they differ in where the layers run.
  The kernel program runs each layer on the matrix unit, ten blocks of 5000 rows at a time: two products into zero
  accumulators, their sum, a 1 x N bias row broadcast down the rows, and for the first layer the maximum with a zero
  splat. The reference runs each layer on the host: two contractions, their sum, the bias placed as a row and
  broadcast, and the maximum with a broadcast zero. At the extended reals every one of these reads, at entry (r, c),
  as the same expression  Σ_k a (r, k) · w_l (k, c) + Σ_k f (r, k) · w_r (k, c) + b (c)  in the same order of
  operations, so no law of arithmetic beyond reading each operation at an index is needed, and the inputs'
  finiteness is never used. A row of a layer depends only on the same row of its two left operands, which is why the
  ten row blocks the kernel writes back are the blocks of one whole-array function.
-/
import proofs.«121603_j80195629350956_1_alg».proof.Defs
import proofs.«121603_j80195629350956_1_alg».proof.Proof.Gen.Kernel
import proofs.«121603_j80195629350956_1_alg».proof.Proof.Gen.Kernel.Skeleton
import proofs.«121603_j80195629350956_1_alg».proof.Proof.Gen.Kernel.Launch
import proofs.«121603_j80195629350956_1_alg».proof.Proof.Gen.Kernel.Points
import proofs.«121603_j80195629350956_1_alg».proof.Proof.Gen.Kernel.Frame
import proofs.«121603_j80195629350956_1_alg».proof.Proof.Gen.KernelIdeal
import proofs.«121603_j80195629350956_1_alg».proof.Proof.Gen.KernelIdeal.Skeleton
import proofs.«121603_j80195629350956_1_alg».proof.Proof.Gen.KernelIdeal.Launch
import proofs.«121603_j80195629350956_1_alg».proof.Proof.Gen.KernelIdeal.Points
import proofs.«121603_j80195629350956_1_alg».proof.Proof.Gen.KernelIdeal.Frame
import proofs.«121603_j80195629350956_1_alg».proof.Proof.Gen.ReferenceIdeal
import proofs.«121603_j80195629350956_1_alg».proof.Proof.Gen.Pre_finite_inputs
import proofs.«121603_j80195629350956_1_alg».proof.Proof.Gen.ReferenceIdeal.Run
import proofs.«121603_j80195629350956_1_alg».proof.Proof.Gen.ReferenceIdeal.Read
import proofs.«121603_j80195629350956_1_alg».proof.Proof.KernelRun
import proofs.«121603_j80195629350956_1_alg».proof.Proof.KernelHost
import proofs.«121603_j80195629350956_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel program was rewritten on the way to the extended reals. -/
theorem preserves : Cert.preserves_Kernel_KernelIdeal := trivial

/-- From memories that agree on the arguments both programs end with the two-layer function of the arguments in
    their result buffers: the kernel program's second region leaves it there, the reference's last operation computes
    it. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.result_eq m ρ c), (h c).2⟩)
      (Cert.KernelIdeal.Run.run_named (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v58_eq m' c).trans ?_)
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.out_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
